-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x128 .f32) (main_arg3 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S600x10000 : Shape := ⟨2, ![600, 10000]⟩
abbrev S600x128 : Shape := ⟨2, ![600, 128]⟩

abbrev nBuf : Space → Nat
  | .hbm => 6
  | .vmem => 8
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S10000x128, .f32⟩
  | .local _ .vmem, ⟨0, _⟩ => ⟨S600x10000, .f32⟩
  | .local _ .vmem, ⟨1, _⟩ => ⟨S600x10000, .f32⟩
  | .local _ .vmem, ⟨2, _⟩ => ⟨S10000x128, .f32⟩
  | .local _ .vmem, ⟨3, _⟩ => ⟨S128x128, .f32⟩
  | .local _ .vmem, ⟨4, _⟩ => ⟨S1x128, .f32⟩
  | .local _ .vmem, ⟨5, _⟩ => ⟨S600x128, .f32⟩
  | .local _ .vmem, ⟨6, _⟩ => ⟨S600x128, .f32⟩
  | .local _ .vmem, ⟨7, _⟩ => ⟨S10000x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S600x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S600x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S600x10000_S600x10000_0_0 : ∀ a, (![0, 0] : Fin 2 → Nat) a + S600x10000.size a ≤ S600x10000.size a
  h_S600x10000 : 0 < S600x10000.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S600x128 : S1x128.Broadcasts S600x128
  inb_S600x128_S600x128_0_0 : ∀ a, (![0, 0] : Fin 2 → Nat) a + S600x128.size a ≤ S600x128.size a
  h_S600x128 : 0 < S600x128.numel
  dot_S10000x128_S128x128_S10000x128_1_0_0_1_n_n_wf : DotDims.WF S10000x128 S128x128 S10000x128 [1] [0] [0] [1] [] []
  dot_S600x10000_S10000x128_S600x128_1_0_0_1_n_n_wf : DotDims.WF S600x10000 S10000x128 S600x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S600x10000.size a < S10000x10000.size a
  hwx0_0 : ∀ i : grid0.Coords, EltTy.bits .f32 = 32 ∨ (Rect.unit (s := S10000x10000) (fun a => cc0_transform_0 i a * S600x10000.size a) (fun a => (Pipeline.Clip.of (cc0_transform_0 i a) (S600x10000.size a) (S10000x10000.size a)).extent (S600x10000.size a)) fun a => Pipeline.Clip.inb (Pipeline.Clip.ok_of (hstart0_0 i a))).WholeWords (EltTy.packing .f32)
  hwxs0_0 : ∀ i : grid0.Coords, EltTy.bits .f32 = 32 ∨ (Rect.unit (s := S600x10000) (fun _ => 0) (fun a => (Pipeline.Clip.of (cc0_transform_0 i a) (S600x10000.size a) (S10000x10000.size a)).extent (S600x10000.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S600x128.size a < S10000x128.size a
  hwx0_4 : ∀ i : grid0.Coords, EltTy.bits .f32 = 32 ∨ (Rect.unit (s := S10000x128) (fun a => cc0_transform_4 i a * S600x128.size a) (fun a => (Pipeline.Clip.of (cc0_transform_4 i a) (S600x128.size a) (S10000x128.size a)).extent (S600x128.size a)) fun a => Pipeline.Clip.inb (Pipeline.Clip.ok_of (hstart0_4 i a))).WholeWords (EltTy.packing .f32)
  hwxs0_4 : ∀ i : grid0.Coords, EltTy.bits .f32 = 32 ∨ (Rect.unit (s := S600x128) (fun _ => 0) (fun a => (Pipeline.Clip.of (cc0_transform_4 i a) (S600x128.size a) (S10000x128.size a)).extent (S600x128.size a)) fun a => (Nat.zero_add _).trans_le (Pipeline.Clip.extent_le (Pipeline.Clip.ok_of (hstart0_4 i a)))).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S600x10000_S10000x128_S600x128_1_0_0_1_n_n : DotDims S600x10000 S10000x128 S600x128 where
  lhsContracting := [1]
  rhsContracting := [0]
  lhsNonContracting := [0]
  rhsNonContracting := [1]
  lhsBatch := []
  rhsBatch := []
  wf := dot_S600x10000_S10000x128_S600x128_1_0_0_1_n_n_wf

abbrev win0_0 : Pipeline.Window sig grid0 :=
  Pipeline.Window.ofSpecClip (Memref.whole main_arg1) S600x10000.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpecClip (Memref.whole main_v1) S600x128.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S10000x128, .f32⟩
  | .hbm, ⟨5, _⟩ => ⟨S10000x128, .f32⟩
  | .hbm, ⟨6, _⟩ => ⟨S1x128, .f32⟩
  | .hbm, ⟨7, _⟩ => ⟨S10000x128, .f32⟩
  | .hbm, ⟨8, _⟩ => ⟨S10000x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | .hbm, ⟨14, _⟩ => ⟨S10000x128, .f32⟩
  | .hbm, ⟨15, _⟩ => ⟨S_, .f32⟩
  | .hbm, ⟨16, _⟩ => ⟨S10000x128, .f32⟩
  | .hbm, ⟨17, _⟩ => ⟨S10000x128, .f32⟩
  | .hbm, ⟨18, _⟩ => ⟨S10000x128, .f32⟩
  | .hbm, ⟨19, _⟩ => ⟨S_, .f32⟩
  | .hbm, ⟨20, _⟩ => ⟨S10000x128, .f32⟩
  | .hbm, ⟨21, _⟩ => ⟨S10000x128, .f32⟩
  | .hbm, ⟨22, _⟩ => ⟨S_, .f32⟩
  | .hbm, ⟨23, _⟩ => ⟨S10000x128, .f32⟩
  | .hbm, ⟨24, _⟩ => ⟨S10000x128, .f32⟩
  | .hbm, ⟨25, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.WordBody.lean ====
import proofs.«150715_g45947560132727_cont_8to1_c_29_11_alg».proof.Proof.Gen.Kernel.Frame
import proofs.«150715_g45947560132727_cont_8to1_c_29_11_alg».proof.Proof.Gen.Kernel.Skeleton
import Idealize.ShloMosaic.Lib.Pipeline.Value
set_option maxRecDepth 16384

noncomputable section

namespace Cert.Kernel.Body
open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The body's one branch: taken exactly when the grid coordinate is zero. -/
abbrev cond0 (i : grid0.Coords) : Prop :=
  (Scalar.cmpi .ne (Scalar.extui (Scalar.cmpi .eq (BitVec.ofNat 32 (i 0).val) 0#32)) 0#32) = 1#1

/-- Over the seventeen points of the grid the branch is taken at the first point only. -/
theorem hcond0 : ∀ t : Fin cfg0.N, cond0 (grid0.coords t) ↔ t.val = 0 :=
  (by decide +kernel : ∀ t : Fin grid0.N, cond0 (grid0.coords t) ↔ t.val = 0)

/-- The offsets of every access of the body are zero on both axes. -/
theorem off_zero : (![0, 0] : Fin 2 → Nat) = fun _ => 0 := funext fun a => by fin_cases a <;> rfl

/-- A buffer stored through its whole rectangle, once, reads back as what was stored. -/
theorem read_writes_whole {sg : RefSig} {κ : Kind} {sp : Space} {S : Shape} {e : EltTy}
    (v : View sg κ sp S e) (f : v.ty.Contents (Elt F)) {off : Fin S.rank → Nat} (h : off = fun _ => 0)
    (inb : ∀ a, off a + S.size a ≤ S.size a) (w : S.Idx → Elt F e) :
    v.read (Elt F) (v.writes (Elt F) f [(⟨Rect.unit off S.size inb, w⟩ : View.Piece (Elt F) S e)]) = w := by
  subst h
  rw [View.read_writes_eq_canon _ _ _ (fun y => ⟨_, List.mem_singleton_self _, by
    show y ∈ (Rect.whole S).set; rw [Rect.set_whole]; exact Finset.mem_univ y⟩), View.canon_unit_zero rfl]

set_option maxHeartbeats 2000000 in
/-- The body at the first grid point, on whole staging buffers holding `X0 … X3`: the scratch ends holding the
    product of the second and third operands (`k0_pay1`), and the result's buffer the activation of the first
    operand's product with that scratch plus the bias row (`k0_pay2`); the four inputs are left as they were. -/
theorem body_first (c : Dev nD) (E : Set ℕ) (i : grid0.Coords) (hc : cond0 i)
    (arg1 : Memref sig .tc .vmem S600x10000 .f32) (harg1 : arg1.IsWhole) (arg2 : Memref sig .tc .vmem S10000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S600x128 .f32) (harg5 : arg5.IsWhole) (arg6 : Memref sig .tc .vmem S10000x128 .bf16) (harg6 : arg6.IsWhole)
    (X0 : Vec F S600x10000 .f32) (X1 : Vec F S10000x128 .f32) (X2 : Vec F S128x128 .f32) (X3 : Vec F S1x128 .f32) (K : PUnit → sProp 𝕄) :
    iprop(owns (c : Thread nD τ) arg1 fullShare X0 ∗ owns (c : Thread nD τ) arg2 fullShare X1 ∗ owns (c : Thread nD τ) arg3 fullShare X2
        ∗ owns (c : Thread nD τ) arg4 fullShare X3 ∗ (∃ d, owns (c : Thread nD τ) arg5 fullShare d) ∗ (∃ d, owns (c : Thread nD τ) arg6 fullShare d)
        ∗ (iprop(owns (c : Thread nD τ) arg1 fullShare X0 ∗ owns (c : Thread nD τ) arg2 fullShare X1 ∗ owns (c : Thread nD τ) arg3 fullShare X2
            ∗ owns (c : Thread nD τ) arg4 fullShare X3 ∗ owns (c : Thread nD τ) arg5 fullShare (k0_pay2 X0 (k0_pay1 X1 X2) X3)
            ∗ owns (c : Thread nD τ) arg6 fullShare (k0_pay1 X1 X2)) -∗ K ⟨⟩))
      ⊢ wp frame (wpE (defs₀ (F := F)) Variants.none c none) E (cc0__body i arg1 harg1 arg2 harg2 arg3 harg3 arg4 harg4 arg5 harg5 arg6 harg6) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    rw [read_writes_whole _ _ off_zero, View.readCov_unit_zero _ off_zero]
    simp only [View.readAt_eq_ld, View.ld_unit_zero (S := S600x10000) off_zero, View.ld_unit_zero (S := S10000x128) off_zero,
      View.ld_unit_zero (S := S128x128) off_zero, View.ld_unit_zero (S := S1x128) off_zero]
  · iexists _; isplitr
    swap; · iexact H5
    ipureintro
    sl_unfold_run_names
    rw [read_writes_whole _ _ off_zero]
    simp only [View.readAt_eq_ld, View.ld_unit_zero (S := S10000x128) off_zero, View.ld_unit_zero (S := S128x128) off_zero]

set_option maxHeartbeats 2000000 in
/-- The body at a later grid point, the scratch holding `S`: the scratch and the four inputs are left as they
    were, and the result's buffer ends holding the activation of the first operand's product with `S` plus the
    bias row (`k0_pay2`). -/
theorem body_later (c : Dev nD) (E : Set ℕ) (i : grid0.Coords) (hc : ¬cond0 i)
    (arg1 : Memref sig .tc .vmem S600x10000 .f32) (harg1 : arg1.IsWhole) (arg2 : Memref sig .tc .vmem S10000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S600x128 .f32) (harg5 : arg5.IsWhole) (arg6 : Memref sig .tc .vmem S10000x128 .bf16) (harg6 : arg6.IsWhole)
    (X0 : Vec F S600x10000 .f32) (X1 : Vec F S10000x128 .f32) (X2 : Vec F S128x128 .f32) (X3 : Vec F S1x128 .f32)
    (S : Vec F S10000x128 .bf16) (K : PUnit → sProp 𝕄) :
    iprop(owns (c : Thread nD τ) arg1 fullShare X0 ∗ owns (c : Thread nD τ) arg2 fullShare X1 ∗ owns (c : Thread nD τ) arg3 fullShare X2
        ∗ owns (c : Thread nD τ) arg4 fullShare X3 ∗ (∃ d, owns (c : Thread nD τ) arg5 fullShare d) ∗ owns (c : Thread nD τ) arg6 fullShare S
        ∗ (iprop(owns (c : Thread nD τ) arg1 fullShare X0 ∗ owns (c : Thread nD τ) arg2 fullShare X1 ∗ owns (c : Thread nD τ) arg3 fullShare X2
            ∗ owns (c : Thread nD τ) arg4 fullShare X3 ∗ owns (c : Thread nD τ) arg5 fullShare (k0_pay2 X0 S X3)
            ∗ owns (c : Thread nD τ) arg6 fullShare S) -∗ K ⟨⟩))
      ⊢ wp frame (wpE (defs₀ (F := F)) Variants.none c none) E (cc0__body i arg1 harg1 arg2 harg2 arg3 harg3 arg4 harg4 arg5 harg5 arg6 harg6) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  subst hf0 hf1 hf2 hf3 hf5
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    try sl_unfold_run_names
    rw [read_writes_whole _ _ off_zero]
    simp only [View.readAt_eq_ld, View.ld_unit_zero (S := S600x10000) off_zero, View.ld_unit_zero (S := S10000x128) off_zero,
      View.ld_unit_zero (S := S1x128) off_zero]
  · iexists f5; isplitr; · ipureintro; rfl
    iexact H5

end Cert.Kernel.Body
end
-- ==== Proof.WordFrame.lean ====
import proofs.«150715_g45947560132727_cont_8to1_c_29_11_alg».proof.Proof.WordBody
import Idealize.ShloMosaic.Lib.Pipeline.Value

/-!
The word-level kernel's frame: it runs to the end, faults nowhere, and leaves its four argument arrays unchanged.
Nothing is said here of what it computes, so nothing is named: between grid points the scratch matrix is held at
some contents, the result window's staging buffer is handed to the body and taken back at any contents, and the
row-blocked input's buffer — fetched afresh at every point, its last block overhanging the array — is taken back as
it was found. The three whole-array inputs are fetched once and found in place at every later point.
-/

set_option maxRecDepth 16384

noncomputable section

namespace Cert.Kernel.Data
open Cert.Kernel Cert.Kernel.Gen Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch operand, as a whole buffer. -/
abbrev scM : Memref sig .tc .vmem S10000x128 .bf16 := Memref.whole cc0_scratch0

/-- The one window whose contents the frame does not name: the result's. -/
def forgets : Fin 5 → Bool := fun w => w.val == 4

theorem PhiA_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-- The proof data: the arrays as the region finds them; after the body each input's buffer at its block (the
    row-blocked one on its moved rows); the result's unnamed; the invariant the scratch at anything and the
    generator register at some state; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Scalar.ofBits .f32 0#32) (iblk m c 0 t)
    | ⟨1, _⟩ => iblk m c 1 t
    | ⟨2, _⟩ => iblk m c 2 t
    | ⟨3, _⟩ => iblk m c 3 t
    | ⟨4, h⟩ => Pipeline.Dat.unnamed (cfg := cfg0) ⟨4, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) :
    (dats m 0 c).after 0 t = win0_0.fill (grid0.coords t) (fun _ => Scalar.ofBits .f32 0#32) (iblk m c 0 t) := by
  dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]

/-- The row-blocked input is fetched at every point: its buffer holds the block on the moved rows, `d` below. -/
theorem before0 (c : Dev nD) (t : Fin cfg0.N) (d) :
    (dats m 0 c).before 0 t d = win0_0.fill (grid0.coords t) d (iblk m c 0 t) := by
  rw [(dats m 0 c).before_fetched 0 t (fetch0_0 t) d]
  unfold Dat.fetched Dat.blockOf iblk; rw [A_eq]; try rfl
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare d))

def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare d))

set_option maxHeartbeats 4000000 in
/-- The body at any point, by the branch: the inputs' buffers are left as found, the scratch and the result's
    buffer at some contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl,
    show (dats m 0 c).Φ t.succ = Pipeline.ΦA spec0 c from rfl,
    show (dats m 0 c).Φ t.castSucc = Pipeline.ΦA spec0 c from rfl,
    after0, after1, after2, after3, Window.cut_fill, PhiA_eq]
  by_cases hz : t.val = 0
  · iintro ⟨⟨HS, Hg⟩, Ho, ⟨%d0, H0⟩, ⟨%d1, H1⟩, ⟨%d2, H2⟩, ⟨%d3, H3⟩, ⟨%d4, H4⟩⟩
    iapply (body_first (F := F) c Set.univ (grid0.coords t) ((hcond0 t).mpr hz) _ _ _ _ _ _ _ _ _ _ _ _
      (win0_0.fill (grid0.coords t) d0 (iblk m c 0 t)) (iblk m c 1 t) (iblk m c 2 t) (iblk m c 3 t) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hg]
    · isplitl [HS]; · iexists _; iexact HS
      iexact Hg
    isplitl [Ho]; · iexact Ho
    isplitl [H0]; · iexists d0; iexact H0
    isplitl [H1]; · iexact H1
    isplitl [H2]; · iexact H2
    isplitl [H3]; · iexact H3
    iexists _; iexact H4
  · iintro ⟨⟨⟨%s, HS⟩, Hg⟩, Ho, ⟨%d0, H0⟩, ⟨%d1, H1⟩, ⟨%d2, H2⟩, ⟨%d3, H3⟩, ⟨%d4, H4⟩⟩
    iapply (body_later (F := F) c Set.univ (grid0.coords t) (fun h => hz ((hcond0 t).mp h)) _ _ _ _ _ _ _ _ _ _ _ _
      (win0_0.fill (grid0.coords t) d0 (iblk m c 0 t)) (iblk m c 1 t) (iblk m c 2 t) (iblk m c 3 t) s _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hg]
    · isplitl [HS]; · iexists _; iexact HS
      iexact Hg
    isplitl [Ho]; · iexact Ho
    isplitl [H0]; · iexists d0; iexact H0
    isplitl [H1]; · iexact H1
    isplitl [H2]; · iexact H2
    isplitl [H3]; · iexact H3
    iexists _; iexact H4

/-- The library's body obligation, the result's window forgotten and the row-blocked input stated on its moved rows. -/
theorem body_obligation (c : Dev nD) :
    BodyObligationLoose (dats (F := F) m 0 c) (defs₀ (F := F)) Variants.none () Set.univ forgets := fun t => by
  rw [bigSep_W0, bigSep_W0]
  exact sound_body m c t

/-! ## The run and the frame -/

set_option backward.isDefEq.respectTransparency.types false in
/-- Every weakly fair execution of the program terminates; every input array of the pipeline ends unchanged, nothing
    is said of the result array, and every other unscoped buffer ends as the region found it. -/
theorem run_main : θ_run defs (onTc (τ := τ) (main (F := F))) (s₀ m ρ)
    (Pipeline.RDat.FramePost (cfgs 0) (fun c => (dats m 0 c).toRForget forgets) (V m)) :=
  Pipeline.RDat.θ_run_frame cfgs (0 : Fin 1) launch0 defs₀ Variants.none (fun c => (dats m 0 c).toRForget forgets) m ρ main
    (hbody := fun c => (body_obligation m c).toRForget)
    (hshare := fun c => ((dats m 0 c).toRForget forgets).share_full fun _ => rfl)
    (howed := fun _ _ => rfl) (V := V m) (hmain := hmain m Variants.none) (hA := A_eq m) (hΦ := fun _ _ => rfl)

/-- The frame: the program runs and leaves its four argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
      (Eq.mp (congrFun (((dats m 0 c).toRForget forgets).ArrAt_in 1 rfl _) _) ((h c).1 1)).trans ((A_eq m c 1).trans (V_main_arg0 m c)),
      (Eq.mp (congrFun (((dats m 0 c).toRForget forgets).ArrAt_in 0 rfl _) _) ((h c).1 0)).trans ((A_eq m c 0).trans (V_main_arg1 m c)),
      (Eq.mp (congrFun (((dats m 0 c).toRForget forgets).ArrAt_in 2 rfl _) _) ((h c).1 2)).trans ((A_eq m c 2).trans (V_main_arg2 m c)),
      ((h c).2 main_arg3 (Pipeline.mem_restRefs_of main_arg3 (by decide) (by decide))).trans (V_main_arg3 m c)⟩)
    (run_main m ρ)

end Cert.Kernel.Data

end
-- ==== Proof.IdealBody.lean ====
import proofs.«150715_g45947560132727_cont_8to1_c_29_11_alg».proof.Proof.Gen.KernelIdeal.Frame
import proofs.«150715_g45947560132727_cont_8to1_c_29_11_alg».proof.Proof.Gen.KernelIdeal.Skeleton
import Idealize.ShloMosaic.Lib.Pipeline.Value
set_option maxRecDepth 16384

noncomputable section

namespace Cert.KernelIdeal.Body
open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The body's one branch: taken exactly when the grid coordinate is zero. -/
abbrev cond0 (i : grid0.Coords) : Prop :=
  (Scalar.cmpi .ne (Scalar.extui (Scalar.cmpi .eq (BitVec.ofNat 32 (i 0).val) 0#32)) 0#32) = 1#1

/-- Over the seventeen points of the grid the branch is taken at the first point only. -/
theorem hcond0 : ∀ t : Fin cfg0.N, cond0 (grid0.coords t) ↔ t.val = 0 :=
  (by decide +kernel : ∀ t : Fin grid0.N, cond0 (grid0.coords t) ↔ t.val = 0)

/-- The offsets of every access of the body are zero on both axes. -/
theorem off_zero : (![0, 0] : Fin 2 → Nat) = fun _ => 0 := funext fun a => by fin_cases a <;> rfl

/-- A buffer stored through its whole rectangle, once, reads back as what was stored. -/
theorem read_writes_whole {sg : RefSig} {κ : Kind} {sp : Space} {S : Shape} {e : EltTy}
    (v : View sg κ sp S e) (f : v.ty.Contents (Elt F)) {off : Fin S.rank → Nat} (h : off = fun _ => 0)
    (inb : ∀ a, off a + S.size a ≤ S.size a) (w : S.Idx → Elt F e) :
    v.read (Elt F) (v.writes (Elt F) f [(⟨Rect.unit off S.size inb, w⟩ : View.Piece (Elt F) S e)]) = w := by
  subst h
  rw [View.read_writes_eq_canon _ _ _ (fun y => ⟨_, List.mem_singleton_self _, by
    show y ∈ (Rect.whole S).set; rw [Rect.set_whole]; exact Finset.mem_univ y⟩), View.canon_unit_zero rfl]

set_option maxHeartbeats 2000000 in
/-- The body at the first grid point, on whole staging buffers holding `X0 … X3`: the scratch ends holding the
    product of the second and third operands (`k0_pay1`), and the result's buffer the activation of the first
    operand's product with that scratch plus the bias row (`k0_pay2`); the four inputs are left as they were. -/
theorem body_first (c : Dev nD) (E : Set ℕ) (i : grid0.Coords) (hc : cond0 i)
    (arg1 : Memref sig .tc .vmem S600x10000 .f32) (harg1 : arg1.IsWhole) (arg2 : Memref sig .tc .vmem S10000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S600x128 .f32) (harg5 : arg5.IsWhole) (arg6 : Memref sig .tc .vmem S10000x128 .bf16) (harg6 : arg6.IsWhole)
    (X0 : Vec F S600x10000 .f32) (X1 : Vec F S10000x128 .f32) (X2 : Vec F S128x128 .f32) (X3 : Vec F S1x128 .f32) (K : PUnit → sProp 𝕄) :
    iprop(owns (c : Thread nD τ) arg1 fullShare X0 ∗ owns (c : Thread nD τ) arg2 fullShare X1 ∗ owns (c : Thread nD τ) arg3 fullShare X2
        ∗ owns (c : Thread nD τ) arg4 fullShare X3 ∗ (∃ d, owns (c : Thread nD τ) arg5 fullShare d) ∗ (∃ d, owns (c : Thread nD τ) arg6 fullShare d)
        ∗ (iprop(owns (c : Thread nD τ) arg1 fullShare X0 ∗ owns (c : Thread nD τ) arg2 fullShare X1 ∗ owns (c : Thread nD τ) arg3 fullShare X2
            ∗ owns (c : Thread nD τ) arg4 fullShare X3 ∗ owns (c : Thread nD τ) arg5 fullShare (k0_pay2 X0 (k0_pay1 X1 X2) X3)
            ∗ owns (c : Thread nD τ) arg6 fullShare (k0_pay1 X1 X2)) -∗ K ⟨⟩))
      ⊢ wp frame (wpE (defs₀ (F := F)) Variants.none c none) E (cc0__body i arg1 harg1 arg2 harg2 arg3 harg3 arg4 harg4 arg5 harg5 arg6 harg6) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    rw [read_writes_whole _ _ off_zero, View.readCov_unit_zero _ off_zero]
    simp only [View.readAt_eq_ld, View.ld_unit_zero (S := S600x10000) off_zero, View.ld_unit_zero (S := S10000x128) off_zero,
      View.ld_unit_zero (S := S128x128) off_zero, View.ld_unit_zero (S := S1x128) off_zero]
  · iexists _; isplitr
    swap; · iexact H5
    ipureintro
    sl_unfold_run_names
    rw [read_writes_whole _ _ off_zero]
    simp only [View.readAt_eq_ld, View.ld_unit_zero (S := S10000x128) off_zero, View.ld_unit_zero (S := S128x128) off_zero]

set_option maxHeartbeats 2000000 in
/-- The body at a later grid point, the scratch holding `S`: the scratch and the four inputs are left as they
    were, and the result's buffer ends holding the activation of the first operand's product with `S` plus the
    bias row (`k0_pay2`). -/
theorem body_later (c : Dev nD) (E : Set ℕ) (i : grid0.Coords) (hc : ¬cond0 i)
    (arg1 : Memref sig .tc .vmem S600x10000 .f32) (harg1 : arg1.IsWhole) (arg2 : Memref sig .tc .vmem S10000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S600x128 .f32) (harg5 : arg5.IsWhole) (arg6 : Memref sig .tc .vmem S10000x128 .bf16) (harg6 : arg6.IsWhole)
    (X0 : Vec F S600x10000 .f32) (X1 : Vec F S10000x128 .f32) (X2 : Vec F S128x128 .f32) (X3 : Vec F S1x128 .f32)
    (S : Vec F S10000x128 .bf16) (K : PUnit → sProp 𝕄) :
    iprop(owns (c : Thread nD τ) arg1 fullShare X0 ∗ owns (c : Thread nD τ) arg2 fullShare X1 ∗ owns (c : Thread nD τ) arg3 fullShare X2
        ∗ owns (c : Thread nD τ) arg4 fullShare X3 ∗ (∃ d, owns (c : Thread nD τ) arg5 fullShare d) ∗ owns (c : Thread nD τ) arg6 fullShare S
        ∗ (iprop(owns (c : Thread nD τ) arg1 fullShare X0 ∗ owns (c : Thread nD τ) arg2 fullShare X1 ∗ owns (c : Thread nD τ) arg3 fullShare X2
            ∗ owns (c : Thread nD τ) arg4 fullShare X3 ∗ owns (c : Thread nD τ) arg5 fullShare (k0_pay2 X0 S X3)
            ∗ owns (c : Thread nD τ) arg6 fullShare S) -∗ K ⟨⟩))
      ⊢ wp frame (wpE (defs₀ (F := F)) Variants.none c none) E (cc0__body i arg1 harg1 arg2 harg2 arg3 harg3 arg4 harg4 arg5 harg5 arg6 harg6) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  subst hf0 hf1 hf2 hf3 hf5
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    try sl_unfold_run_names
    rw [read_writes_whole _ _ off_zero]
    simp only [View.readAt_eq_ld, View.ld_unit_zero (S := S600x10000) off_zero, View.ld_unit_zero (S := S10000x128) off_zero,
      View.ld_unit_zero (S := S1x128) off_zero]
  · iexists f5; isplitr; · ipureintro; rfl
    iexact H5

end Cert.KernelIdeal.Body
end
-- ==== Proof.IdealBlocks.lean ====
import proofs.«150715_g45947560132727_cont_8to1_c_29_11_alg».proof.Proof.Gen.KernelIdeal.Frame
import proofs.«150715_g45947560132727_cont_8to1_c_29_11_alg».proof.Proof.Gen.KernelIdeal.Skeleton
import Idealize.ShloMosaic.Lib.Pipeline.Value
import Idealize.ShloMosaic.Lib.ValueIdx
import Idealize.ShloMosaic.Lib.StableHlo.Run
set_option maxRecDepth 16384

noncomputable section

/-!
How each window's block at a grid point reads off its array. The grid has seventeen points; point `t` takes rows
`600·t … 600·t + 599` of the 10000 × 10000 matrix and of the result, so the last point's block overhangs the arrays
by 200 rows and only its first 400 rows are moved. The other three windows are whole arrays at every point: the
10000 × 128 matrix, the 128 × 128 matrix, and the bias as a 1 × 128 row (the host reshapes the bias vector to that
row before the region).
-/

namespace Cert.KernelIdeal.Blocks
open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx
variable {F : FTy → Type} [FloatOps F]
variable (m : (ℓ : Loc nD τ sig) → Buf (Elt F) ℓ)

/-- The two row-blocked windows, decided over the grid: block index `(t, 0)`; the same rows moved in both; all
    columns moved; the moved rows end inside the array, are at most 600, and are 600 except at the last point. -/
theorem sched : ∀ t : Fin cfg0.N,
    win0_0.index t 0 = t.val ∧ win0_0.index t 1 = 0 ∧ win0_4.index t 0 = t.val ∧ win0_4.index t 1 = 0
    ∧ win0_0.xsize (grid0.coords t) 0 = win0_4.xsize (grid0.coords t) 0 ∧ win0_0.xsize (grid0.coords t) 1 = 10000
    ∧ win0_4.xsize (grid0.coords t) 1 = 128 ∧ t.val * 600 + win0_4.xsize (grid0.coords t) 0 ≤ 10000
    ∧ win0_4.xsize (grid0.coords t) 0 ≤ 600
    ∧ (t.val + 1 < 17 → win0_4.xsize (grid0.coords t) 0 = 600)
    ∧ (t.val + 1 = 17 → win0_4.xsize (grid0.coords t) 0 = 400) :=
  (by decide +kernel : ∀ t : Fin grid0.N, _)

/-- The three whole-array windows sit at block index `(0, 0)` at every point. -/
theorem whole : ∀ t : Fin cfg0.N, win0_1.index t 0 = 0 ∧ win0_1.index t 1 = 0 ∧ win0_2.index t 0 = 0 ∧ win0_2.index t 1 = 0
    ∧ win0_3.index t 0 = 0 ∧ win0_3.index t 1 = 0 :=
  (by decide +kernel : ∀ t : Fin grid0.N, _)

/-- The region finds the bias row as the bias vector recast to one row. -/
theorem V_row (c : Dev nD) :
    (V m c main_v0 : S1x128.Idx → Elt F .f32) = shapeCast S1x128 (m ((c : Thread nD τ).loc main_arg3)) shapeCasts_S128_S1x128 := by
  dsimp only [Gen.V, Gen.hostOps0]
  after_results
  rfl

/-- The 10000 × 128 matrix's block is the whole matrix. -/
theorem blk1_eq (c : Dev nD) (t : Fin cfg0.N) :
    (iblk m c 1 t : S10000x128.Idx → Elt F .f32) = m ((c : Thread nD τ).loc main_arg0) := by
  obtain ⟨e0, e1, -⟩ := whole t
  funext i
  show V m c main_arg0 (((cfg0.win 1).blk t).view.emb i) = _
  rw [V_main_arg0]
  refine congrArg _ (funext fun a => Fin.ext ?_)
  match a with
  | ⟨0, _⟩ => show win0_1.index t (0 : Fin 2) * 10000 + 1 * (i 0).val = (i 0).val; omega
  | ⟨1, _⟩ => show win0_1.index t (1 : Fin 2) * 128 + 1 * (i 1).val = (i 1).val; omega

/-- The 128 × 128 matrix's block is the whole matrix. -/
theorem blk2_eq (c : Dev nD) (t : Fin cfg0.N) :
    (iblk m c 2 t : S128x128.Idx → Elt F .f32) = m ((c : Thread nD τ).loc main_arg2) := by
  obtain ⟨-, -, e0, e1, -⟩ := whole t
  funext i
  show V m c main_arg2 (((cfg0.win 2).blk t).view.emb i) = _
  rw [V_main_arg2]
  refine congrArg _ (funext fun a => Fin.ext ?_)
  match a with
  | ⟨0, _⟩ => show win0_2.index t (0 : Fin 2) * 128 + 1 * (i 0).val = (i 0).val; omega
  | ⟨1, _⟩ => show win0_2.index t (1 : Fin 2) * 128 + 1 * (i 1).val = (i 1).val; omega

/-- The bias row's block at column `q` is the bias vector's entry `q`. -/
theorem blk3_apply (c : Dev nD) (t : Fin cfg0.N) (q : Fin 128) :
    (iblk m c 3 t : S1x128.Idx → Elt F .f32) (ix2 (0 : Fin 1) q) = m ((c : Thread nD τ).loc main_arg3) (ix1 q) := by
  obtain ⟨-, -, -, -, e0, e1⟩ := whole t
  show V m c main_v0 (((cfg0.win 3).blk t).view.emb (ix2 (0 : Fin 1) q)) = _
  rw [V_row]
  refine shapeCast_apply _ _ _ (ix1 q) ?_
  rw [Shape.rowMajor_val_one, Shape.rowMajor_val_two]
  show q.val = (win0_3.index t (0 : Fin 2) * 1 + 1 * 0) * 128 + (win0_3.index t (1 : Fin 2) * 128 + 1 * q.val)
  omega

/-- The row block's entry `y` is the matrix's entry at row `600·t + y₀`, column `y₁`. -/
theorem blk0_apply (c : Dev nD) (t : Fin cfg0.N) (y : (win0_0.xblock (grid0.coords t)).Idx) (i : S10000x10000.Idx)
    (h0 : (i 0).val = t.val * 600 + (y 0).val) (h1 : (i 1).val = (y 1).val) :
    iblk m c 0 t y = m ((c : Thread nD τ).loc main_arg1) i := by
  obtain ⟨e0, e1, -⟩ := sched t
  show V m c main_arg1 (((cfg0.win 0).blk t).view.emb y) = _
  rw [V_main_arg1]
  refine congrArg _ (funext fun a => Fin.ext ?_)
  match a with
  | ⟨0, _⟩ => show win0_0.index t (0 : Fin 2) * 600 + 1 * (y 0).val = (i 0).val; omega
  | ⟨1, _⟩ => show win0_0.index t (1 : Fin 2) * 10000 + 1 * (y 1).val = (i 1).val; omega

/-- A staging buffer holding the row block on its moved rows, anything elsewhere, read at a moved row `p`: the
    matrix's entry at row `600·t + p`. -/
theorem fill0_apply (c : Dev nD) (t : Fin cfg0.N) (d : win0_0.block.Idx → Elt F .f32) (p : Fin 600) (k : Fin 10000)
    (hp : p.val < win0_0.xsize (grid0.coords t) 0) (i : S10000x10000.Idx)
    (h0 : (i 0).val = t.val * 600 + p.val) (h1 : (i 1).val = k.val) :
    win0_0.fill (grid0.coords t) d (iblk m c 0 t) (ix2 p k) = m ((c : Thread nD τ).loc main_arg1) i := by
  obtain ⟨-, -, -, -, -, x1, -⟩ := sched t
  have hm : win0_0.moved (grid0.coords t) (ix2 p k) = true := (win0_0.moved_iff _ _).mpr fun a => by
    match a with
    | ⟨0, _⟩ => exact hp
    | ⟨1, _⟩ => show k.val < win0_0.xsize (grid0.coords t) 1; rw [x1]; exact k.isLt
  unfold Window.fill
  rw [dif_pos hm]
  exact blk0_apply m c t _ i h0 h1

end Cert.KernelIdeal.Blocks
end
-- ==== Proof.RowBlock.lean ====
import proofs.«150715_g45947560132727_cont_8to1_c_29_11_alg».proof.Proof.Gen.KernelIdeal.Skeleton
import proofs.«150715_g45947560132727_cont_8to1_c_29_11_alg».proof.Proof.Gen.ReferenceIdeal.Read
import Idealize.ShloMosaic.Lib.KernelVsHost
import Idealize.ShloMosaic.Lib.Pipeline.Value
import Idealize.ShloMosaic.Lib.ValueIdx
import Idealize.ShloMosaic.PureOps.Ideal.Laws

/-!
The arithmetic of one row block, on the extended reals.

Write `A` for the 10000 × 10000 matrix, `X` for the 10000 × 128 matrix, `W` for the 128 × 128 matrix and `b` for
the bias vector. The reference computes `act (A · (X · W) + b)` over all 10000 rows at once, `act` the
tanh-form activation `z ↦ z · (1/2 · (1 + tanh (c₂ · (z + c₁ · z³))))` with the two float constants read as their exact
binary values. The kernel computes, per block of 600 rows, `act (A_blk · S + b)` with `S` a stored copy of `X · W`.
Entry `(p, q)` of a block depends on row `p` of `A_blk` only, so wherever row `p` of the block is row `r` of `A`
the block's entry is the reference's entry `(r, q)`, whatever the block's other rows hold. The only algebraic law used
is commutativity of the product (the cube is spelled `z · (z · z)` on one side and `(z · z) · z` on the other), which
holds at the infinities too; no finiteness is needed.
-/

noncomputable section

namespace Cert.Bridge

open Idealize.ShloMosaic Idealize.ShloMosaic.ValueIdx
open Cert.KernelIdeal Cert.KernelIdeal.Gen
open scoped BigOperators

/-- The tanh-form activation on the extended reals, its four float constants at their exact binary values
    (one half, one, `0.797884583…` and `0.044715…`), the cube spelled `(z · z) · z`. -/
def act (z : EReal) : EReal :=
  z * (Ideal.ofBits .f32 0x3F000000#32 * (Ideal.ofBits .f32 0x3F800000#32
    + Ideal.tanh (Ideal.ofBits .f32 0x3F4C422A#32 * (z + Ideal.ofBits .f32 0x3D372713#32 * (z * z * z)))))

/-- The reference's result at an index is the activation of its pre-activation `A · (X · W) + b` there. -/
theorem ref_act (x : Vec Ideal S10000x128 .f32) (adj : Vec Ideal S10000x10000 .f32) (W : Vec Ideal S128x128 .f32)
    (b : Vec Ideal S128 .f32) (i : S10000x128.Idx) :
    Cert.ReferenceIdeal.Read.val_main_v17 (F := Ideal) x adj W b i
      = act (Cert.ReferenceIdeal.Read.val_main_v4 (F := Ideal) x adj W b i) := by
  rw [Cert.ReferenceIdeal.Read.val_main_v17_apply, Cert.ReferenceIdeal.Read.val_main_v16_apply,
    Cert.ReferenceIdeal.Read.val_main_v15_apply, Cert.ReferenceIdeal.Read.val_main_cst_2_apply,
    Cert.ReferenceIdeal.Read.val_main_v14_apply, Cert.ReferenceIdeal.Read.val_main_v13_apply,
    Cert.ReferenceIdeal.Read.val_main_cst_1_apply, Cert.ReferenceIdeal.Read.val_main_v12_apply,
    Cert.ReferenceIdeal.Read.val_main_v11_apply, Cert.ReferenceIdeal.Read.val_main_v10_apply,
    Cert.ReferenceIdeal.Read.val_main_cst_0_apply, Cert.ReferenceIdeal.Read.val_main_v9_apply,
    Cert.ReferenceIdeal.Read.val_main_v8_apply, Cert.ReferenceIdeal.Read.val_main_v7_apply,
    Cert.ReferenceIdeal.Read.val_main_cst_apply, Cert.ReferenceIdeal.Read.val_main_v6_apply,
    Cert.ReferenceIdeal.Read.val_main_v5_apply]
  rfl

/-- A block's pre-activation: the block of `A` times the stored product, plus the bias row laid along every row. -/
def pre (X0 : Vec Ideal S600x10000 .f32) (S : Vec Ideal S10000x128 .bf16) (X3 : Vec Ideal S1x128 .f32) :
    FVec Ideal S600x128 .f32 :=
  addf (matmul (φ₁ := .bf16) (φ₂ := .bf16) dot_S600x10000_S10000x128_S600x128_1_0_0_1_n_n none
      (truncf .bf16 X0 bitsLt_bf16_f32) S (constant S600x128 .f32 0x00000000#32))
    (broadcastTo S600x128 (shapeCast S1x128 X3 shapeCasts_S1x128_S1x128) broadcasts_S1x128_S600x128)

/-- What the kernel stores for a block is the activation of the block's pre-activation, entry by entry: the cube
    `z · (z · z)` commuted to `(z · z) · z`. -/
theorem pay2_act (X0 : Vec Ideal S600x10000 .f32) (S : Vec Ideal S10000x128 .bf16) (X3 : Vec Ideal S1x128 .f32)
    (j : S600x128.Idx) : k0_pay2 (F := Ideal) X0 S X3 j = act (pre X0 S X3 j) := by
  show (pre X0 S X3 j) * (Ideal.ofBits .f32 0x3F000000#32 * (Ideal.ofBits .f32 0x3F800000#32
      + Ideal.tanh (Ideal.ofBits .f32 0x3F4C422A#32 * (pre X0 S X3 j + Ideal.ofBits .f32 0x3D372713#32
        * (pre X0 S X3 j * (pre X0 S X3 j * pre X0 S X3 j)))))) = act (pre X0 S X3 j)
  unfold act
  rw [mul_comm (pre X0 S X3 j) (pre X0 S X3 j * pre X0 S X3 j)]

/-- The kernel's stored product is the reference's first product `X · W`: a matrix product into a zero
    accumulator is the plain product, and the change of float format and the same-shape cast are identities. -/
theorem stored_eq (x : Vec Ideal S10000x128 .f32) (W : Vec Ideal S128x128 .f32) :
    (k0_pay1 (F := Ideal) x W : S10000x128.Idx → EReal) = Cert.ReferenceIdeal.Read.val_main_v0 (F := Ideal) x W := by
  unfold k0_pay1 Cert.ReferenceIdeal.Read.val_main_v0
  dsimp only
  rw [shapeCast_self]
  funext j
  rw [truncf_apply]
  exact congrFun (matmul_zero_eq_dotGeneral _ none x W) j

/-- The left operand's index of the block product keeps the output's row. -/
theorem blk_lhs_0 (i : S600x128.Idx) (q : dot_S600x10000_S10000x128_S600x128_1_0_0_1_n_n.contr.Idx) :
    (dot_S600x10000_S10000x128_S600x128_1_0_0_1_n_n.lhsIdx i q 0).val = (i 0).val := by
  unfold DotDims.lhsIdx
  rw [dif_neg (show ¬(0 : Fin S600x10000.rank) ∈ dot_S600x10000_S10000x128_S600x128_1_0_0_1_n_n.lhsBatch by decide),
    dif_pos (show (0 : Fin S600x10000.rank) ∈ dot_S600x10000_S10000x128_S600x128_1_0_0_1_n_n.lhsNonContracting by decide)]
  rfl
/-- The right operand's index of the block product keeps the output's column. -/
theorem blk_rhs_1 (i : S600x128.Idx) (q : dot_S600x10000_S10000x128_S600x128_1_0_0_1_n_n.contr.Idx) :
    (dot_S600x10000_S10000x128_S600x128_1_0_0_1_n_n.rhsIdx i q 1).val = (i 1).val := by
  unfold DotDims.rhsIdx
  rw [dif_neg (show ¬(1 : Fin S10000x128.rank) ∈ dot_S600x10000_S10000x128_S600x128_1_0_0_1_n_n.rhsBatch by decide),
    dif_pos (show (1 : Fin S10000x128.rank) ∈ dot_S600x10000_S10000x128_S600x128_1_0_0_1_n_n.rhsNonContracting by decide)]
  rfl

/-- The block product at `(p, q)` is the sum over `k` of the block's entry `(p, k)` times the stored entry `(k, q)`. -/
theorem blk_dot_apply (L : FVec Ideal S600x10000 .bf16) (S : FVec Ideal S10000x128 .bf16) (p : Fin 600) (q : Fin 128) :
    matmul (φ₁ := .bf16) (φ₂ := .bf16) dot_S600x10000_S10000x128_S600x128_1_0_0_1_n_n none L S
        (constant S600x128 .f32 0x00000000#32) (ix2 p q)
      = ∑ k : Fin 10000, L (ix2 p k) * S (ix2 k q) := by
  show FloatOps.matmul (φ₁ := .bf16) (φ₂ := .bf16) dot_S600x10000_S10000x128_S600x128_1_0_0_1_n_n none L S
    (constant S600x128 .f32 0x00000000#32) (ix2 p q) = _
  rw [Ideal.matmul_constant_zero_apply,
    ← Equiv.sum_comp (contrEquiv1 dot_S600x10000_S10000x128_S600x128_1_0_0_1_n_n 10000 rfl rfl).symm]
  refine Finset.sum_congr rfl fun k _ => ?_
  have hk := contrEquiv1_symm_val dot_S600x10000_S10000x128_S600x128_1_0_0_1_n_n 10000 rfl rfl k
  have el : dot_S600x10000_S10000x128_S600x128_1_0_0_1_n_n.lhsIdx (ix2 p q)
      ((contrEquiv1 dot_S600x10000_S10000x128_S600x128_1_0_0_1_n_n 10000 rfl rfl).symm k) = ix2 p k :=
    funext fun a => Fin.ext (by
      match a with
      | ⟨0, _⟩ => exact blk_lhs_0 _ _
      | ⟨1, _⟩ => exact (dot_S600x10000_S10000x128_S600x128_1_0_0_1_n_n.lhsIdx_val_of_single rfl _ _).trans hk)
  have er : dot_S600x10000_S10000x128_S600x128_1_0_0_1_n_n.rhsIdx (ix2 p q)
      ((contrEquiv1 dot_S600x10000_S10000x128_S600x128_1_0_0_1_n_n 10000 rfl rfl).symm k) = ix2 k q :=
    funext fun a => Fin.ext (by
      match a with
      | ⟨0, _⟩ => exact (dot_S600x10000_S10000x128_S600x128_1_0_0_1_n_n.rhsIdx_val_of_single rfl _ _).trans hk
      | ⟨1, _⟩ => exact blk_rhs_1 _ _)
  rw [el, er]

/-- ROW LOCALITY. If row `p` of the block is row `r` of `A`, the stored matrix is `X · W` and the bias row is `b`,
    then the block's pre-activation at `(p, q)` is the reference's pre-activation at `(r, q)`. -/
theorem pre_row (X0 : Vec Ideal S600x10000 .f32) (S : Vec Ideal S10000x128 .bf16) (X3 : Vec Ideal S1x128 .f32)
    (x : Vec Ideal S10000x128 .f32) (adj : Vec Ideal S10000x10000 .f32) (W : Vec Ideal S128x128 .f32) (b : Vec Ideal S128 .f32)
    (p : Fin 600) (q : Fin 128) (r : Fin 10000)
    (hX0 : ∀ k : Fin 10000, X0 (ix2 p k) = adj (ix2 r k))
    (hS : (S : S10000x128.Idx → EReal) = Cert.ReferenceIdeal.Read.val_main_v0 (F := Ideal) x W)
    (hX3 : X3 (ix2 (0 : Fin 1) q) = b (ix1 q)) :
    pre X0 S X3 (ix2 p q) = Cert.ReferenceIdeal.Read.val_main_v4 (F := Ideal) x adj W b (ix2 r q) := by
  unfold pre
  rw [addf_apply, Cert.ReferenceIdeal.Read.val_main_v4_apply]
  show _ + _ = _ + _
  congr 1
  · rw [blk_dot_apply, Cert.ReferenceIdeal.Read.val_main_v1_apply]
    refine Finset.sum_congr rfl fun k _ => ?_
    rw [truncf_apply, hX0 k, hS]
    have e1 : Cert.ReferenceIdeal.Read.lidx_main_v1 (ix2 r q) k = ix2 r k :=
      funext fun a => by match a with | ⟨0, _⟩ => rfl | ⟨1, _⟩ => rfl
    have e2 : Cert.ReferenceIdeal.Read.ridx_main_v1 (ix2 r q) k = ix2 k q :=
      funext fun a => by match a with | ⟨0, _⟩ => rfl | ⟨1, _⟩ => rfl
    rw [e1, e2]
  · have e1 := broadcastTo_apply (shapeCast S1x128 X3 shapeCasts_S1x128_S1x128) broadcasts_S1x128_S600x128
      (ix2 p q) (ix2 (0 : Fin 1) q) (by
        intro a
        match a with
        | ⟨0, _⟩ => show 0 = if (1 : Nat) = 1 then 0 else p.val; rw [if_pos rfl]
        | ⟨1, _⟩ => show q.val = if (128 : Nat) = 1 then 0 else q.val; rw [if_neg (by decide)])
    rw [e1, shapeCast_self, hX3, Cert.ReferenceIdeal.Read.val_main_v3_apply, Cert.ReferenceIdeal.Read.val_main_v2_apply]
    exact congrArg b (funext fun a => by match a with | ⟨0, _⟩ => rfl)

/-- The kernel's stored block at `(p, q)` is the reference's result at `(r, q)`, under the hypotheses of `pre_row`. -/
theorem pay2_row (X0 : Vec Ideal S600x10000 .f32) (S : Vec Ideal S10000x128 .bf16) (X3 : Vec Ideal S1x128 .f32)
    (x : Vec Ideal S10000x128 .f32) (adj : Vec Ideal S10000x10000 .f32) (W : Vec Ideal S128x128 .f32) (b : Vec Ideal S128 .f32)
    (p : Fin 600) (q : Fin 128) (r : Fin 10000)
    (hX0 : ∀ k : Fin 10000, X0 (ix2 p k) = adj (ix2 r k))
    (hS : (S : S10000x128.Idx → EReal) = Cert.ReferenceIdeal.Read.val_main_v0 (F := Ideal) x W)
    (hX3 : X3 (ix2 (0 : Fin 1) q) = b (ix1 q)) :
    k0_pay2 (F := Ideal) X0 S X3 (ix2 p q) = Cert.ReferenceIdeal.Read.val_main_v17 (F := Ideal) x adj W b (ix2 r q) := by
  rw [pay2_act, ref_act, pre_row X0 S X3 x adj W b p q r hX0 hS hX3]

end Cert.Bridge

end
-- ==== Proof.IdealData.lean ====
import proofs.«150715_g45947560132727_cont_8to1_c_29_11_alg».proof.Proof.IdealBody
import proofs.«150715_g45947560132727_cont_8to1_c_29_11_alg».proof.Proof.IdealBlocks
import proofs.«150715_g45947560132727_cont_8to1_c_29_11_alg».proof.Proof.RowBlock
import Idealize.ShloMosaic.Lib.Pipeline.Value

/-!
The idealized kernel's run, with its result named.

The scratch matrix is written once, at the first grid point, with `X · W`, and read at every point; so the
invariant between points says: before the first point the scratch holds anything, afterwards it holds `X · W`.
At point `t` the staging buffer of the 10000 × 10000 matrix holds rows `600·t …` of it on the rows the fetch moved
and unnamed words below them (the last block overhangs the array). Entry `(p, q)` of what the body stores depends
on row `p` of that buffer only, so on the moved rows the stored block is the reference's result on rows
`600·t …`, whatever the unnamed words are; the write-back moves exactly those rows. The seventeen blocks cover the
10000 rows, so the result array ends holding the reference's result.
-/

set_option maxRecDepth 16384

noncomputable section

namespace Cert.KernelIdeal.Data
open Cert.KernelIdeal Cert.KernelIdeal.Gen Cert.KernelIdeal.Body Cert.KernelIdeal.Blocks

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx

local notation "𝕄" => MT nD τ sig Unit (Elt Ideal) ℕ (UR sig nD τ) ℕ

variable (m : (ℓ : Loc nD τ sig) → Buf (Elt Ideal) ℓ) (ρ : Dev nD → PrngReg)

/-- The scratch operand, as a whole buffer. -/
abbrev scM : Memref sig .tc .vmem S10000x128 .bf16 := Memref.whole cc0_scratch0

/-- What the scratch holds after the first point: the product `X · W` of the two argument matrices, as the body
    computes it. -/
def stored (c : Dev nD) : Vec Ideal S10000x128 .bf16 :=
  k0_pay1 (F := Ideal) (m ((c : Thread nD τ).loc main_arg0)) (m ((c : Thread nD τ).loc main_arg2))

/-- The reference's result as a function of the four argument arrays. -/
def result (c : Dev nD) : S10000x128.Idx → EReal :=
  Cert.ReferenceIdeal.Read.val_main_v17 (F := Ideal) (m ((c : Thread nD τ).loc main_arg0))
    (m ((c : Thread nD τ).loc main_arg1)) (m ((c : Thread nD τ).loc main_arg2)) (m ((c : Thread nD τ).loc main_arg3))

/-- The stored product is the reference's first product. -/
theorem stored_eq (c : Dev nD) : (stored m c : S10000x128.Idx → EReal)
    = Cert.ReferenceIdeal.Read.val_main_v0 (F := Ideal) (m ((c : Thread nD τ).loc main_arg0)) (m ((c : Thread nD τ).loc main_arg2)) :=
  Cert.Bridge.stored_eq _ _

/-- The invariant before position `n`: at the start the scratch at anything; after any point the scratch at
    `X · W`; the generator register at some state throughout. -/
def Phi (c : Dev nD) : ℕ → sProp 𝕄
  | 0 => Pipeline.ΦA spec0 c
  | _ + 1 => iprop(iprop(owns (c : Thread nD τ) scM fullShare (stored m c)) ∗ (∃ r, prngReg c r))

theorem PhiA_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

theorem Phi_succ (c : Dev nD) (n : ℕ) :
    Phi m c (n + 1) = iprop(iprop(owns (c : Thread nD τ) scM fullShare (stored m c)) ∗ (∃ r, prngReg c r)) := rfl

theorem Phi_pos (c : Dev nD) (n : ℕ) (hn : n ≠ 0) :
    Phi m c n = iprop(iprop(owns (c : Thread nD τ) scM fullShare (stored m c)) ∗ (∃ r, prngReg c r)) := by
  cases n with
  | zero => exact absurd rfl hn
  | succ n => rfl

/-- The proof data: the arrays as the region finds them; after the body the three whole-array inputs' buffers at
    their blocks, the row-blocked input's at its block on the moved rows (zero below), the result's at the
    reference's result on the moved rows (zero below); the invariant `Phi`; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => (0 : EReal)) (iblk m c 0 t)
    | ⟨1, _⟩ => iblk m c 1 t
    | ⟨2, _⟩ => iblk m c 2 t
    | ⟨3, _⟩ => iblk m c 3 t
    | ⟨4, _⟩ => win0_4.fill (grid0.coords t) (fun _ => (0 : EReal)) ((win0_4.blk t).view.read (Elt Ideal) (result m c))
  Φ t := Phi m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) :
    (dats m 0 c).after 0 t = win0_0.fill (grid0.coords t) (fun _ => (0 : EReal)) (iblk m c 0 t) := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t
      = win0_4.fill (grid0.coords t) (fun _ => (0 : EReal)) ((win0_4.blk t).view.read (Elt Ideal) (result m c)) := by
  dsimp only [dats]

/-- The row-blocked input is fetched at every point: its buffer holds the block on the moved rows, `d` below. -/
theorem before0 (c : Dev nD) (t : Fin cfg0.N) (d) :
    (dats m 0 c).before 0 t d = win0_0.fill (grid0.coords t) d (iblk m c 0 t) := by
  rw [(dats m 0 c).before_fetched 0 t (fetch0_0 t) d]
  unfold Dat.fetched Dat.blockOf iblk; rw [A_eq]; try rfl
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
/-- The result's buffer is written back at every point: the body finds it at anything. -/
theorem before4 (c : Dev nD) (t : Fin cfg0.N) (d) : (dats m 0 c).before 4 t d = d :=
  (dats m 0 c).before_out_reset 4 rfl t (by
    by_cases h : t.val = 0
    · exact .inl h
    · exact .inr ⟨h, flush0_4 _⟩) d

/-- THE STORED BLOCK ON THE MOVED ROWS. Whatever the row-blocked input's buffer holds below the moved rows, what the
    body stores, cut to the moved rows, is the reference's result read through the result's block at the point. -/
theorem stored_block (c : Dev nD) (t : Fin cfg0.N) (d : win0_0.block.Idx → EReal) :
    win0_4.cut (grid0.coords t) (k0_pay2 (F := Ideal) (win0_0.fill (grid0.coords t) d (iblk m c 0 t)) (stored m c) (iblk m c 3 t))
      = (win0_4.blk t).view.read (Elt Ideal) (result m c) := by
  obtain ⟨i0, i1, j0, j1, xe, x1, y1, hin, hle, -, -⟩ := sched t
  funext y
  have hy0 : (y 0).val < win0_4.xsize (grid0.coords t) 0 := (y 0).isLt
  have hy1 : (y 1).val < win0_4.xsize (grid0.coords t) 1 := (y 1).isLt
  show k0_pay2 (F := Ideal) (win0_0.fill (grid0.coords t) d (iblk m c 0 t)) (stored m c) (iblk m c 3 t) (win0_4.xinj (grid0.coords t) y)
    = result m c ((win0_4.blk t).view.emb y)
  have hj : win0_4.xinj (grid0.coords t) y = ix2 (⟨(y 0).val, by omega⟩ : Fin 600) (⟨(y 1).val, by omega⟩ : Fin 128) :=
    funext fun a => Fin.ext (by match a with | ⟨0, _⟩ => rfl | ⟨1, _⟩ => rfl)
  have hi : (win0_4.blk t).view.emb y = ix2 (⟨t.val * 600 + (y 0).val, by omega⟩ : Fin 10000) (⟨(y 1).val, by omega⟩ : Fin 128) :=
    funext fun a => Fin.ext (by
      match a with
      | ⟨0, _⟩ => show win0_4.index t (0 : Fin 2) * 600 + 1 * (y 0).val = t.val * 600 + (y 0).val; omega
      | ⟨1, _⟩ => show win0_4.index t (1 : Fin 2) * 128 + 1 * (y 1).val = (y 1).val; omega)
  rw [hj, hi]
  unfold result
  exact Cert.Bridge.pay2_row _ _ _ _ _ _ _ _ _ _
    (fun k => fill0_apply m c t d _ k (by show (y 0).val < win0_0.xsize (grid0.coords t) 0; omega) _ rfl rfl)
    (stored_eq m c) (blk3_apply m c t _)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare (win0_4.fill (grid0.coords t) d (win0_4.cut (grid0.coords t) ((dats m 0 c).after 4 t)))))

set_option maxHeartbeats 4000000 in
/-- The body at any point: at the first point the branch is taken and the scratch, found at anything, is left at
    `X · W`; at a later point the scratch is found and left at `X · W`. Either way the inputs' buffers are left
    as found and the result's holds, on the moved rows, the reference's result (`stored_block`). -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl,
    show (dats m 0 c).Φ t.succ = Phi m c (t.val + 1) from rfl, Phi_succ,
    show (dats m 0 c).Φ t.castSucc = Phi m c t.val from rfl,
    after0, after1, after2, after3, after4, Window.cut_fill, Window.cut_fill]
  have hsc : k0_pay1 (F := Ideal) (iblk m c 1 t) (iblk m c 2 t) = stored m c := by
    unfold stored; rw [blk1_eq, blk2_eq]
  have hfill : ∀ d0 : win0_0.block.Idx → EReal,
      win0_4.fill (grid0.coords t) (k0_pay2 (F := Ideal) (win0_0.fill (grid0.coords t) d0 (iblk m c 0 t)) (stored m c) (iblk m c 3 t))
        ((win0_4.blk t).view.read (Elt Ideal) (result m c))
      = k0_pay2 (F := Ideal) (win0_0.fill (grid0.coords t) d0 (iblk m c 0 t)) (stored m c) (iblk m c 3 t) := fun d0 => by
    rw [← stored_block m c t d0, Window.fill_cut]
  by_cases hz : t.val = 0
  · rw [show Phi m c t.val = Pipeline.ΦA spec0 c from by rw [hz]; rfl, PhiA_eq]
    iintro ⟨⟨HS, Hg⟩, Ho, ⟨%d0, H0⟩, ⟨%d1, H1⟩, ⟨%d2, H2⟩, ⟨%d3, H3⟩, ⟨%d4, H4⟩⟩
    iapply (body_first (F := Ideal) c Set.univ (grid0.coords t) ((hcond0 t).mpr hz) _ _ _ _ _ _ _ _ _ _ _ _
      (win0_0.fill (grid0.coords t) d0 (iblk m c 0 t)) (iblk m c 1 t) (iblk m c 2 t) (iblk m c 3 t) _)
    isplitl [H0]; · iexact H0
    isplitl [H1]; · iexact H1
    isplitl [H2]; · iexact H2
    isplitl [H3]; · iexact H3
    isplitl [H4]; · iexists _; iexact H4
    isplitl [HS]; · iexact HS
    rw [hsc]
    iintro ⟨H0, H1, H2, H3, H4, HS⟩
    isplitl [HS Hg]
    · isplitl [HS]; · iexact HS
      iexact Hg
    isplitl [Ho]; · iexact Ho
    isplitl [H0]; · iexists d0; iexact H0
    isplitl [H1]; · iexact H1
    isplitl [H2]; · iexact H2
    isplitl [H3]; · iexact H3
    iexists _; rw [hfill d0]; iexact H4
  · rw [Phi_pos m c t.val hz]
    iintro ⟨⟨HS, Hg⟩, Ho, ⟨%d0, H0⟩, ⟨%d1, H1⟩, ⟨%d2, H2⟩, ⟨%d3, H3⟩, ⟨%d4, H4⟩⟩
    iapply (body_later (F := Ideal) c Set.univ (grid0.coords t) (fun h => hz ((hcond0 t).mp h)) _ _ _ _ _ _ _ _ _ _ _ _
      (win0_0.fill (grid0.coords t) d0 (iblk m c 0 t)) (iblk m c 1 t) (iblk m c 2 t) (iblk m c 3 t) (stored m c) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hg]
    · isplitl [HS]; · iexact HS
      iexact Hg
    isplitl [Ho]; · iexact Ho
    isplitl [H0]; · iexists d0; iexact H0
    isplitl [H1]; · iexact H1
    isplitl [H2]; · iexact H2
    isplitl [H3]; · iexact H3
    iexists _; rw [hfill d0]; iexact H4

/-- The library's body obligation, the two clipped windows stated on their moved rows. -/
theorem body_obligation (c : Dev nD) :
    BodyObligationLoose (dats m 0 c) (defs₀ (F := Ideal)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = Pipeline.ΦA spec0 c from rfl]
  try exact Idealize.SL.BI.Entails.refl _

/-- After the last point the invariant gives the scratch back at some contents. -/
theorem hout (c : Dev nD) : (dats m 0 c).Φ (Fin.last cfg0.N) ⊢ Pipeline.ΦA spec0 c := by
  rw [show (dats m 0 c).Φ (Fin.last cfg0.N) = Phi m c cfg0.N from rfl,
    Phi_pos m c cfg0.N (by rw [show cfg0.N = 17 from N_0]; decide), PhiA_eq]
  iintro ⟨HS, Hg⟩
  isplitl [HS]
  · iexists _; iexact HS
  iexact Hg

/-! ## The run -/

set_option backward.isDefEq.respectTransparency.types false in
/-- Every weakly fair execution of the program terminates with every array of the pipeline at what the proof data
    computes and every other unscoped buffer as the region found it. -/
theorem run_main : θ_run defs (onTc (τ := τ) (main (F := Ideal))) (s₀ m ρ) (Pipeline.FramePost cfgs (dats m) 0 (V m)) :=
  Pipeline.θ_run_frame_track cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hin := hin m) (hout := hout m)

/-- The frame: the program runs and leaves its four argument arrays unchanged. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-! ## The result array -/

/-- What point `t` writes back is the reference's result read through the point's block. -/
theorem flushed_eq (c : Dev nD) (t : Fin cfg0.N) :
    (dats m 0 c).flushed 4 t = ((cfg0.win 4).blk t).view.read (Elt Ideal) (result m c) := by
  show (cfg0.win 4).cut (grid0.coords t) ((dats m 0 c).after 4 t) = _
  rw [after4]
  exact Window.cut_fill _ _ _ _

/-- An index of the result array is in point `t`'s block iff each coordinate is in the block's moved range. -/
theorem mem_blk (t : Fin cfg0.N) (i : S10000x128.Idx) :
    i ∈ ((cfg0.win 4).blk t).view.set ↔ ∀ a : Fin 2, win0_4.index t a * S600x128.size a ≤ (i a).val
      ∧ (i a).val < win0_4.index t a * S600x128.size a + win0_4.xsize (grid0.coords t) a := by
  show i ∈ ((View.whole main_v1).slice (win0_4.rect t)).set ↔ _
  rw [View.set_slice_whole, Rect.mem_set_unit]
  exact Iff.rfl

/-- Row `r` of the result lies in the block of point `r / 600`. -/
theorem cover (i : S10000x128.Idx) :
    ∃ t : Fin cfg0.N, (cfg0.win 4).flush t = true ∧ i ∈ ((cfg0.win 4).blk t).view.set := by
  have hi0 : (i 0).val < 10000 := (i 0).isLt
  have hi1 : (i 1).val < 128 := (i 1).isLt
  have hN : cfg0.N = 17 := N_0
  refine ⟨⟨(i 0).val / 600, by omega⟩, flush0_4 _, ?_⟩
  rw [mem_blk]
  obtain ⟨-, -, j0, j1, -, -, y1, -, -, hfull, hlast⟩ := sched ⟨(i 0).val / 600, by omega⟩
  intro a
  match a with
  | ⟨0, _⟩ =>
    show win0_4.index _ (0 : Fin 2) * 600 ≤ (i 0).val ∧ (i 0).val < win0_4.index _ (0 : Fin 2) * 600 + win0_4.xsize _ (0 : Fin 2)
    rw [j0]
    by_cases hl : (i 0).val / 600 + 1 < 17
    · rw [hfull hl]; dsimp only; omega
    · rw [hlast (by dsimp only at hl ⊢; omega)]; dsimp only; omega
  | ⟨1, _⟩ =>
    show win0_4.index _ (1 : Fin 2) * 128 ≤ (i 1).val ∧ (i 1).val < win0_4.index _ (1 : Fin 2) * 128 + win0_4.xsize _ (1 : Fin 2)
    rw [j1, y1]; omega

/-- The result array ends holding the reference's result. -/
theorem final (c : Dev nD) : (dats m 0 c).arrAt 4 cfg0.N = result m c :=
  (dats m 0 c).arrAt_eq_of_cover 4 (result m c) (fun t _ => flushed_eq m c t) cover

/-- The idealized kernel's run with its result named: it terminates with the result array at the reference's
    result of the argument arrays, the arguments unchanged. -/
theorem run : θ_run defs (onTc (τ := τ) (main (F := Ideal))) ⟨m, fun _ => 0, ρ⟩ (fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 4).trans (final m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c)⟩)
    (run_main m ρ)

end Cert.KernelIdeal.Data

end
-- ==== Proof.lean ====
/-
  The kernel against its reference, on the extended reals.

  Both programs compute `act (A · (X · W) + b)` for a 10000 × 10000 matrix `A`, a 10000 × 128 matrix `X`, a
  128 × 128 matrix `W` and a bias vector `b`, with `act z = z · (1/2 · (1 + tanh (c₂ · (z + c₁ · z³))))`, the two
  float constants `c₁`, `c₂` the same binary words on both sides. The reference does it with two whole matrix
  products. The kernel walks seventeen blocks of 600 rows of `A`: at the first block it computes `X · W` once into a
  scratch matrix, and at every block it multiplies the block by the scratch, adds the bias row and applies `act`; the
  last block overhangs `A` by 200 rows, which are never written back. At the ideal values a change of float format is
  the identity and a matrix product into a zero accumulator is the plain product, so block `t` of the kernel's result
  is rows `600·t …` of the reference's result; the only algebraic law used is commutativity of the product (the cube
  is spelled `z · (z · z)` by one program and `(z · z) · z` by the other), so finiteness of the inputs is not used.

  The three frames: each program runs to the end, faults nowhere and leaves its arguments unchanged — the
  word-level kernel with nothing named (Proof/WordFrame.lean), the idealized kernel with its result named
  (Proof/IdealData.lean), the reference by its run read back. The idealization rewrote no operation, so the
  fourth conjunct is `True`. The fifth: both idealized programs end with the same result array.
-/
import proofs.«150715_g45947560132727_cont_8to1_c_29_11_alg».proof.Defs
import proofs.«150715_g45947560132727_cont_8to1_c_29_11_alg».proof.Proof.Gen.Kernel
import proofs.«150715_g45947560132727_cont_8to1_c_29_11_alg».proof.Proof.Gen.KernelIdeal
import proofs.«150715_g45947560132727_cont_8to1_c_29_11_alg».proof.Proof.Gen.ReferenceIdeal
import proofs.«150715_g45947560132727_cont_8to1_c_29_11_alg».proof.Proof.Gen.Pre_finite_inputs
import proofs.«150715_g45947560132727_cont_8to1_c_29_11_alg».proof.Proof.Gen.ReferenceIdeal.Run
import proofs.«150715_g45947560132727_cont_8to1_c_29_11_alg».proof.Proof.Gen.ReferenceIdeal.Read
import proofs.«150715_g45947560132727_cont_8to1_c_29_11_alg».proof.Proof.WordFrame
import proofs.«150715_g45947560132727_cont_8to1_c_29_11_alg».proof.Proof.IdealData

noncomputable section

namespace Cert.Proof

open Idealize.ShloMosaic Idealize.ShloMosaic.TcCoe Idealize.SL.Sem

/-- The word-level kernel runs and leaves its arguments unchanged. -/
theorem frame_word : Cert.frame_Kernel := fun m ρ _ => Cert.Kernel.Data.frame (F := Bits) m ρ

/-- The idealized kernel runs and leaves its arguments unchanged. -/
theorem frame_ideal : Cert.frame_KernelIdeal := fun m ρ _ => Cert.KernelIdeal.Data.frame m ρ

/-- The idealized reference runs and leaves its arguments unchanged: its run read back, the result dropped. -/
theorem frame_ref : Cert.frame_ReferenceIdeal := fun m ρ _ =>
  (θ_run Cert.ReferenceIdeal.defs _ _).mono (fun _ h c => (h c).2) (Cert.ReferenceIdeal.Value.run (F := Ideal) m ρ)

/-- From memories that agree on the four arguments both idealized programs end with the result array at the
    reference's function of the arguments: the kernel's by its seventeen row blocks, the reference's by its run. -/
theorem algebraic : Cert.algebraic_KernelIdeal_ReferenceIdeal := by
  intro m ρ m' ρ' _ hagree
  refine ⟨fun c => Cert.KernelIdeal.Data.result m c, Cert.KernelIdeal.Data.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  rfl

theorem claim : Cert.Claim := ⟨Cert.Kernel.Gen.facts, Cert.KernelIdeal.Gen.facts, Cert.ReferenceIdeal.Gen.facts,
  Cert.Pre_finite_inputs.Gen.facts, frame_word, frame_ideal, frame_ref, trivial, algebraic⟩

end Cert.Proof

end
